-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x10 : Shape := ⟨3, ![64, 4096, 10]⟩
abbrev S64x4096x256 : Shape := ⟨3, ![64, 4096, 256]⟩
abbrev S10x10 : Shape := ⟨2, ![10, 10]⟩
abbrev S64x4096 : Shape := ⟨2, ![64, 4096]⟩
abbrev S_ : Shape := ⟨0, ![]⟩

class Facts : Prop where
  bcast_S_S64x4096x10 : S_.BroadcastsInDim S64x4096x10 (![] : Fin 0 → Fin S64x4096x10.rank)
  reducesTo_S64x4096x10_S_d0_1_2 : S64x4096x10.ReducesTo [0, 1, 2] S_
  h_S_ : 0 < S_.numel
  bcast_S_S64x4096x256 : S_.BroadcastsInDim S64x4096x256 (![] : Fin 0 → Fin S64x4096x256.rank)
  reducesTo_S64x4096x256_S_d0_1_2 : S64x4096x256.ReducesTo [0, 1, 2] S_
  bcast_S_S10x10 : S_.BroadcastsInDim S10x10 (![] : Fin 0 → Fin S10x10.rank)
  reducesTo_S10x10_S_d0_1 : S10x10.ReducesTo [0, 1] S_

variable [Facts]

def fn {F : FTy → Type} [FloatOps F] (main_arg0 : FVec F S64x4096x10 .f32) (main_arg1 : FVec F S64x4096x256 .f32) (main_arg2 : FVec F S10x10 .f32) (main_arg3 : IVec S64x4096 32) : IVec S_ 1 :=
  let main_v0 : FVec F S64x4096x10 .f32 := Host.absf main_arg0
  let main_cst : FVec F S_ .f32 := constant S_ .f32 0x7F800000#32
  let main_v1 : FVec F S64x4096x10 .f32 := broadcastInDim S64x4096x10 ![] bcast_S_S64x4096x10 main_cst
  let main_v2 : IVec S64x4096x10 1 := cmpf .olt main_v0 main_v1
  let main_c : IVec S_ 1 := constantI S_ 1 1#1
  let main_v3 : IVec S_ 1 := (fun x v => Host.reduce IntOp.andi x v reducesTo_S64x4096x10_S_d0_1_2 h_S_) main_v2 main_c
  let main_v4 : FVec F S64x4096x256 .f32 := Host.absf main_arg1
  let main_cst_0 : FVec F S_ .f32 := constant S_ .f32 0x7F800000#32
  let main_v5 : FVec F S64x4096x256 .f32 := broadcastInDim S64x4096x256 ![] bcast_S_S64x4096x256 main_cst_0
  let main_v6 : IVec S64x4096x256 1 := cmpf .olt main_v4 main_v5
  let main_c_1 : IVec S_ 1 := constantI S_ 1 1#1
  let main_v7 : IVec S_ 1 := (fun x v => Host.reduce IntOp.andi x v reducesTo_S64x4096x256_S_d0_1_2 h_S_) main_v6 main_c_1
  let main_v8 : IVec S_ 1 := andi main_v3 main_v7
  let main_v9 : FVec F S10x10 .f32 := Host.absf main_arg2
  let main_cst_2 : FVec F S_ .f32 := constant S_ .f32 0x7F800000#32
  let main_v10 : FVec F S10x10 .f32 := broadcastInDim S10x10 ![] bcast_S_S10x10 main_cst_2
  let main_v11 : IVec S10x10 1 := cmpf .olt main_v9 main_v10
  let main_c_3 : IVec S_ 1 := constantI S_ 1 1#1
  let main_v12 : IVec S_ 1 := (fun x v => Host.reduce IntOp.andi x v reducesTo_S10x10_S_d0_1 h_S_) main_v11 main_c_3
  let main_v13 : IVec S_ 1 := andi main_v8 main_v12
  main_v13
-- ==== Kernel.lean ====
abbrev S64x4096x10 : Shape := ⟨3, ![64, 4096, 10]⟩
abbrev S64x4096x256 : Shape := ⟨3, ![64, 4096, 256]⟩
abbrev S10x10 : Shape := ⟨2, ![10, 10]⟩
abbrev S64x4096 : Shape := ⟨2, ![64, 4096]⟩
abbrev S64x10x4096 : Shape := ⟨3, ![64, 10, 4096]⟩
abbrev S64x1x4096 : Shape := ⟨3, ![64, 1, 4096]⟩
abbrev S64x10x256 : Shape := ⟨3, ![64, 10, 256]⟩
abbrev S2x10x4096 : Shape := ⟨3, ![2, 10, 4096]⟩
abbrev S2x4096x256 : Shape := ⟨3, ![2, 4096, 256]⟩
abbrev S2x1x4096 : Shape := ⟨3, ![2, 1, 4096]⟩
abbrev S2x10x256 : Shape := ⟨3, ![2, 10, 256]⟩
abbrev S1x10x4096 : Shape := ⟨3, ![1, 10, 4096]⟩
abbrev S10x4096 : Shape := ⟨2, ![10, 4096]⟩
abbrev S1x4096x256 : Shape := ⟨3, ![1, 4096, 256]⟩
abbrev S4096x256 : Shape := ⟨2, ![4096, 256]⟩
abbrev S1x1x4096 : Shape := ⟨3, ![1, 1, 4096]⟩
abbrev S1x4096 : Shape := ⟨2, ![1, 4096]⟩
abbrev S10 : Shape := ⟨1, ![10]⟩
abbrev S10x1 : Shape := ⟨2, ![10, 1]⟩
abbrev S10x256 : Shape := ⟨2, ![10, 256]⟩
abbrev S1x10x256 : Shape := ⟨3, ![1, 10, 256]⟩

abbrev nBuf : Space → Nat
  | .hbm => 7
  | .vmem => 9
  | .smem => 0
  | _ => 0

abbrev bufTy : (tb : Table) → Fin (tcTables nBuf tb) → BufTy
  | .hbm, ⟨0, _⟩ => ⟨S64x4096x10, .f32⟩
  | .hbm, ⟨1, _⟩ => ⟨S64x4096x256, .f32⟩
  | .hbm, ⟨2, _⟩ => ⟨S10x10, .f32⟩
  | .hbm, ⟨3, _⟩ => ⟨S64x4096, .i32⟩
  | .hbm, ⟨4, _⟩ => ⟨S64x10x4096, .f32⟩
  | .hbm, ⟨5, _⟩ => ⟨S64x1x4096, .i32⟩
  | .hbm, ⟨6, _⟩ => ⟨S64x10x256, .f32⟩
  | .local _ .vmem, ⟨0, _⟩ => ⟨S2x10x4096, .f32⟩
  | .local _ .vmem, ⟨1, _⟩ => ⟨S2x10x4096, .f32⟩
  | .local _ .vmem, ⟨2, _⟩ => ⟨S2x4096x256, .f32⟩
  | .local _ .vmem, ⟨3, _⟩ => ⟨S2x4096x256, .f32⟩
  | .local _ .vmem, ⟨4, _⟩ => ⟨S10x10, .f32⟩
  | .local _ .vmem, ⟨5, _⟩ => ⟨S2x1x4096, .i32⟩
  | .local _ .vmem, ⟨6, _⟩ => ⟨S2x1x4096, .i32⟩
  | .local _ .vmem, ⟨7, _⟩ => ⟨S2x10x256, .f32⟩
  | .local _ .vmem, ⟨8, _⟩ => ⟨S2x10x256, .f32⟩
  | _, _ => ⟨S64x4096x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x10x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x1x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x10x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S64x4096x10_S64x10x4096_0_2_1 : S64x4096x10.Transposes [0, 2, 1] S64x10x4096
  bcast_S64x4096_S64x1x4096_0_2 : S64x4096.BroadcastsInDim S64x1x4096 (![0, 2] : Fin 2 → Fin S64x1x4096.rank)
  inb_S10x10_S10x10_0_0 : ∀ a, (![0, 0] : Fin 2 → Nat) a + S10x10.size a ≤ S10x10.size a
  h_S10x10 : 0 < S10x10.numel
  bitsLt_bf16_f32 : FTy.bits .bf16 < FTy.bits .f32
  inb_S2x10x4096_S1x10x4096_0_0_0 : ∀ a, (![0, 0, 0] : Fin 3 → Nat) a + S1x10x4096.size a ≤ S2x10x4096.size a
  h_S1x10x4096 : 0 < S1x10x4096.numel
  shapeCasts_S1x10x4096_S10x4096 : S1x10x4096.ShapeCasts S10x4096
  inb_S2x4096x256_S1x4096x256_0_0_0 : ∀ a, (![0, 0, 0] : Fin 3 → Nat) a + S1x4096x256.size a ≤ S2x4096x256.size a
  h_S1x4096x256 : 0 < S1x4096x256.numel
  shapeCasts_S1x4096x256_S4096x256 : S1x4096x256.ShapeCasts S4096x256
  inb_S2x1x4096_S1x1x4096_0_0_0 : ∀ a, (![0, 0, 0] : Fin 3 → Nat) a + S1x1x4096.size a ≤ S2x1x4096.size a
  h_S1x1x4096 : 0 < S1x1x4096.numel
  shapeCasts_S1x1x4096_S1x4096 : S1x1x4096.ShapeCasts S1x4096
  broadcasts_S1x4096_S10x4096 : S1x4096.Broadcasts S10x4096
  reduces_S10x4096_S10 : S10x4096.Reduces [1] S10
  shapeCasts_S10_S10x1 : S10.ShapeCasts S10x1
  broadcasts_S10x1_S10x4096 : S10x1.Broadcasts S10x4096
  inb_S2x10x256_S1x10x256_0_0_0 : ∀ a, (![0, 0, 0] : Fin 3 → Nat) a + S1x10x256.size a ≤ S2x10x256.size a
  h_S1x10x256 : 0 < S1x10x256.numel
  shapeCasts_S1x10x256_S10x256 : S1x10x256.ShapeCasts S10x256
  shapeCasts_S10x256_S1x10x256 : S10x256.ShapeCasts S1x10x256
  inb_S2x10x4096_S1x10x4096_1_0_0 : ∀ a, (![1, 0, 0] : Fin 3 → Nat) a + S1x10x4096.size a ≤ S2x10x4096.size a
  inb_S2x4096x256_S1x4096x256_1_0_0 : ∀ a, (![1, 0, 0] : Fin 3 → Nat) a + S1x4096x256.size a ≤ S2x4096x256.size a
  inb_S2x1x4096_S1x1x4096_1_0_0 : ∀ a, (![1, 0, 0] : Fin 3 → Nat) a + S1x1x4096.size a ≤ S2x1x4096.size a
  inb_S2x10x256_S1x10x256_1_0_0 : ∀ a, (![1, 0, 0] : Fin 3 → Nat) a + S1x10x256.size a ≤ S2x10x256.size a
  dot_S10x10_S10x4096_S10x4096_1_0_0_1_n_n_wf : DotDims.WF S10x10 S10x4096 S10x4096 [1] [0] [0] [1] [] []
  dot_S10x4096_S4096x256_S10x256_1_0_0_1_n_n_wf : DotDims.WF S10x4096 S4096x256 S10x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x10x4096.size a ≤ S64x10x4096.size a
  hwx0_0 : ∀ i : grid0.Coords, EltTy.bits .f32 = 32 ∨ (Rect.block (s := S64x10x4096) S2x10x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x4096x256.size a ≤ S64x4096x256.size a
  hwx0_1 : ∀ i : grid0.Coords, EltTy.bits .f32 = 32 ∨ (Rect.block (s := S64x4096x256) S2x4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x10.size a ≤ S10x10.size a
  hwx0_2 : ∀ i : grid0.Coords, EltTy.bits .f32 = 32 ∨ (Rect.block (s := S10x10) S10x10.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1x4096.size a ≤ S64x1x4096.size a
  hwx0_3 : ∀ i : grid0.Coords, EltTy.bits .i32 = 32 ∨ (Rect.block (s := S64x1x4096) S2x1x4096.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x10x256.size a ≤ S64x10x256.size a
  hwx0_4 : ∀ i : grid0.Coords, EltTy.bits .f32 = 32 ∨ (Rect.block (s := S64x10x256) S2x10x256.size (cc0_transform_4 i) (hinb0_4 i)).WholeWords (EltTy.packing .f32)

variable [Facts₀]

def dot_S10x10_S10x4096_S10x4096_1_0_0_1_n_n : DotDims S10x10 S10x4096 S10x4096 where
  lhsContracting := [1]
  rhsContracting := [0]
  lhsNonContracting := [0]
  rhsNonContracting := [1]
  lhsBatch := []
  rhsBatch := []
  wf := dot_S10x10_S10x4096_S10x4096_1_0_0_1_n_n_wf
def dot_S10x4096_S4096x256_S10x256_1_0_0_1_n_n : DotDims S10x4096 S4096x256 S10x256 where
  lhsContracting := [1]
  rhsContracting := [0]
  lhsNonContracting := [0]
  rhsNonContracting := [1]
  lhsBatch := []
  rhsBatch := []
  wf := dot_S10x4096_S4096x256_S10x256_1_0_0_1_n_n_wf

abbrev win0_0 : Pipeline.Window sig grid0 :=
  Pipeline.Window.ofSpec (Memref.whole main_v0) S2x10x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2x1x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2x10x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x4096x10 : Shape := ⟨3, ![64, 4096, 10]⟩
abbrev S64x4096x256 : Shape := ⟨3, ![64, 4096, 256]⟩
abbrev S10x10 : Shape := ⟨2, ![10, 10]⟩
abbrev S64x4096 : Shape := ⟨2, ![64, 4096]⟩
abbrev S64x10x4096 : Shape := ⟨3, ![64, 10, 4096]⟩
abbrev S64x1x4096 : Shape := ⟨3, ![64, 1, 4096]⟩
abbrev S_ : Shape := ⟨0, ![]⟩
abbrev S64x10 : Shape := ⟨2, ![64, 10]⟩
abbrev S64x10x1 : Shape := ⟨3, ![64, 10, 1]⟩
abbrev S64x10x256 : Shape := ⟨3, ![64, 10, 256]⟩

abbrev nBuf : Space → Nat
  | .hbm => 25
  | .vmem => 0
  | .smem => 0
  | _ => 0

abbrev bufTy : (tb : Table) → Fin (tcTables nBuf tb) → BufTy
  | .hbm, ⟨0, _⟩ => ⟨S64x4096x10, .f32⟩
  | .hbm, ⟨1, _⟩ => ⟨S64x4096x256, .f32⟩
  | .hbm, ⟨2, _⟩ => ⟨S10x10, .f32⟩
  | .hbm, ⟨3, _⟩ => ⟨S64x4096, .i32⟩
  | .hbm, ⟨4, _⟩ => ⟨S64x4096x10, .f32⟩
  | .hbm, ⟨5, _⟩ => ⟨S64x10x4096, .f32⟩
  | .hbm, ⟨6, _⟩ => ⟨S64x1x4096, .i32⟩
  | .hbm, ⟨7, _⟩ => ⟨S64x1x4096, .f32⟩
  | .hbm, ⟨8, _⟩ => ⟨S64x10x4096, .f32⟩
  | .hbm, ⟨9, _⟩ => ⟨S64x10x4096, .f32⟩
  | .hbm, ⟨10, _⟩ => ⟨S_, .f32⟩
  | .hbm, ⟨11, _⟩ => ⟨S64x10, .f32⟩
  | .hbm, ⟨12, _⟩ => ⟨S_, .f32⟩
  | .hbm, ⟨13, _⟩ => ⟨S64x10, .f32⟩
  | .hbm, ⟨14, _⟩ => ⟨S64x10, .f32⟩
  | .hbm, ⟨15, _⟩ => ⟨S64x10x1, .f32⟩
  | .hbm, ⟨16, _⟩ => ⟨S64x10x4096, .f32⟩
  | .hbm, ⟨17, _⟩ => ⟨S64x10x4096, .f32⟩
  | .hbm, ⟨18, _⟩ => ⟨S64x10x4096, .f32⟩
  | .hbm, ⟨19, _⟩ => ⟨S_, .f32⟩
  | .hbm, ⟨20, _⟩ => ⟨S64x10, .f32⟩
  | .hbm, ⟨21, _⟩ => ⟨S64x10x1, .f32⟩
  | .hbm, ⟨22, _⟩ => ⟨S64x10x4096, .f32⟩
  | .hbm, ⟨23, _⟩ => ⟨S64x10x4096, .f32⟩
  | .hbm, ⟨24, _⟩ => ⟨S64x10x256, .f32⟩
  | _, _ => ⟨S64x4096x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  transposes_S64x4096x10_S64x10x4096_0_2_1 : S64x4096x10.Transposes [0, 2, 1] S64x10x4096
  bcast_S64x4096_S64x1x4096_0_2 : S64x4096.BroadcastsInDim S64x1x4096 (![0, 2] : Fin 2 → Fin S64x1x4096.rank)
  bcast_S64x1x4096_S64x10x4096_0_1_2 : S64x1x4096.BroadcastsInDim S64x10x4096 (![0, 1, 2] : Fin 3 → Fin S64x10x4096.rank)
  reducesTo_S64x10x4096_S64x10_d2 : S64x10x4096.ReducesTo [2] S64x10
  h_S_ : 0 < S_.numel
  bcast_S_S64x10 : S_.BroadcastsInDim S64x10 (![] : Fin 0 → Fin S64x10.rank)
  bcast_S64x10_S64x10x1_0_1 : S64x10.BroadcastsInDim S64x10x1 (![0, 1] : Fin 2 → Fin S64x10x1.rank)
  bcast_S64x10x1_S64x10x4096_0_1_2 : S64x10x1.BroadcastsInDim S64x10x4096 (![0, 1, 2] : Fin 3 → Fin S64x10x4096.rank)
  dot_S64x4096x10_S10x10_S64x4096x10_2_1_01_0_n_n_wf : DotDims.WF S64x4096x10 S10x10 S64x4096x10 [2] [1] [0, 1] [0] [] []
  dot_S64x10x4096_S64x4096x256_S64x10x256_2_1_1_2_0_0_wf : DotDims.WF S64x10x4096 S64x4096x256 S64x10x256 [2] [1] [1] [2] [0] [0]

variable [Facts₀]

def dot_S64x4096x10_S10x10_S64x4096x10_2_1_01_0_n_n : DotDims S64x4096x10 S10x10 S64x4096x10 where
  lhsContracting := [2]
  rhsContracting := [1]
  lhsNonContracting := [0, 1]
  rhsNonContracting := [0]
  lhsBatch := []
  rhsBatch := []
  wf := dot_S64x4096x10_S10x10_S64x4096x10_2_1_01_0_n_n_wf
def dot_S64x10x4096_S64x4096x256_S64x10x256_2_1_1_2_0_0 : DotDims S64x10x4096 S64x4096x256 S64x10x256 where
  lhsContracting := [2]
  rhsContracting := [1]
  lhsNonContracting := [1]
  rhsNonContracting := [2]
  lhsBatch := [0]
  rhsBatch := [0]
  wf := dot_S64x10x4096_S64x4096x256_S64x10x256_2_1_1_2_0_0_wf

class Facts : Prop extends Facts₀ where

variable [Facts]
-- ==== Proof.SoftmaxPool.lean ====
/-
  Attention pooling through a masked softmax, as a function of families indexed by coordinates on the extended reals.

  For one batch element and one query row, with pre-mask scores `a t`, a multiplicative mask `μ t` and value rows
  `v t d`, all over a finite time axis:

      s t      = a t · μ t                                  (the masked score)
      peak     = max over t of s t, folded from a starting value `lo`
      e t      = exp (s t − peak)
      w t      = e t / Σ_t' e t'                             (the softmax weight)
      out d    = Σ_t w t · v t d                             (the pooled value)

  The starting value `lo` of the maximum stays a parameter: both programs start their maximum from the same word, and
  nothing here needs to know which. The one law recorded is that taking the maximum with `lo` once more changes
  nothing (`max_lo_peak`), since a fold of `max` that starts at `lo` is at least `lo`.

  Two whole-array readings follow, one per layout of the arguments: keys stored time-major `[B, T, J]` with the mask
  `[B, T]` (`attend`), and keys stored feature-major `[B, J, T]` with the mask carrying a unit axis `[B, 1, T]`
  (`attendT`). They differ by where each coordinate sits and by the order of the two factors inside the score's sum;
  `attendT_eq_attend` says that the second, applied to the transposed keys and the mask with its unit axis inserted, is
  the first. Commutativity of the product is all it uses, so no finiteness is assumed anywhere.
-/
import Idealize.ShloMosaic.PureOps.Ideal
import Idealize.ShloMosaic.Lib.ValueIdx
import Mathlib.Data.Finset.Fold

noncomputable section

namespace Cert.SoftmaxPool

open Idealize.ShloMosaic Idealize.ShloMosaic.ValueIdx
open scoped BigOperators

variable {B C J T D : ℕ}

/-! ## One row -/

/-- The maximum of a row of scores, folded from `lo`. -/
def peak (lo : EReal) (s : Fin T → EReal) : EReal := (Finset.univ : Finset (Fin T)).fold max lo s

/-- A score shifted by the row's maximum and exponentiated. -/
def lifted (lo : EReal) (s : Fin T → EReal) (t : Fin T) : EReal := Ideal.exp (s t - peak lo s)

/-- The softmax weight of position `t` in its row. -/
def weight (lo : EReal) (s : Fin T → EReal) (t : Fin T) : EReal := Ideal.div (lifted lo s t) (∑ t' : Fin T, lifted lo s t')

/-- The value rows averaged with the row's softmax weights, at feature `d`. -/
def pooled (lo : EReal) (s : Fin T → EReal) (v : Fin T → Fin D → EReal) (d : Fin D) : EReal := ∑ t : Fin T, weight lo s t * v t d

/-- A maximum folded from `lo` is at least `lo`: taking the maximum with `lo` again changes nothing. -/
theorem max_lo_peak (lo : EReal) (s : Fin T → EReal) : max lo (peak lo s) = peak lo s :=
  max_eq_right ((Finset.le_fold_max lo).mpr (Or.inl le_rfl))

/-! ## Whole arrays -/

/-- Keys `[B, T, J]`, values `[B, T, D]`, queries `[C, J]`, mask `[B, T]` (a 32-bit integer read as a signed number):
    the score of query row `c` at time `t` is `(Σ_j k b t j · q c j) · mask b t`. -/
def attend (lo : EReal) (k : (⟨3, ![B, T, J]⟩ : Shape).Idx → EReal) (v : (⟨3, ![B, T, D]⟩ : Shape).Idx → EReal)
    (q : (⟨2, ![C, J]⟩ : Shape).Idx → EReal) (mask : (⟨2, ![B, T]⟩ : Shape).Idx → BitVec 32) (b : Fin B) (c : Fin C) (d : Fin D) : EReal :=
  pooled lo (fun t => (∑ j : Fin J, k (ix3 b t j) * q (ix2 c j)) * FloatOps.sitofp (F := Ideal) .f32 (mask (ix2 b t)))
    (fun t d => v (ix3 b t d)) d

/-- The same with the keys stored `[B, J, T]` and the mask `[B, 1, T]`: the score is `(Σ_j q c j · kT b j t) · mask b 0 t`. -/
def attendT (lo : EReal) (kT : (⟨3, ![B, J, T]⟩ : Shape).Idx → EReal) (v : (⟨3, ![B, T, D]⟩ : Shape).Idx → EReal)
    (q : (⟨2, ![C, J]⟩ : Shape).Idx → EReal) (mask1 : (⟨3, ![B, 1, T]⟩ : Shape).Idx → BitVec 32) (b : Fin B) (c : Fin C) (d : Fin D) : EReal :=
  pooled lo (fun t => (∑ j : Fin J, q (ix2 c j) * kT (ix3 b j t)) * FloatOps.sitofp (F := Ideal) .f32 (mask1 (ix3 b (0 : Fin 1) t)))
    (fun t d => v (ix3 b t d)) d

/-- With `kT b j t = k b t j` and `mask1 b 0 t = mask b t` the two readings agree: the factors of each product commute. -/
theorem attendT_eq_attend (lo : EReal) (k : (⟨3, ![B, T, J]⟩ : Shape).Idx → EReal) (kT : (⟨3, ![B, J, T]⟩ : Shape).Idx → EReal)
    (v : (⟨3, ![B, T, D]⟩ : Shape).Idx → EReal) (q : (⟨2, ![C, J]⟩ : Shape).Idx → EReal)
    (mask : (⟨2, ![B, T]⟩ : Shape).Idx → BitVec 32) (mask1 : (⟨3, ![B, 1, T]⟩ : Shape).Idx → BitVec 32)
    (hk : ∀ (b : Fin B) (j : Fin J) (t : Fin T), kT (ix3 b j t) = k (ix3 b t j))
    (hm : ∀ (b : Fin B) (t : Fin T), mask1 (ix3 b (0 : Fin 1) t) = mask (ix2 b t)) (b : Fin B) (c : Fin C) (d : Fin D) :
    attendT lo kT v q mask1 b c d = attend lo k v q mask b c d := by
  unfold attendT attend
  refine congrArg (fun s => pooled lo s (fun t d => v (ix3 b t d)) d) (funext fun t => ?_)
  rw [hm b t]
  refine congrArg (· * _) (Finset.sum_congr rfl fun j _ => ?_)
  rw [hk b j t, mul_comm]

/-- `attend` as one function of the result array's index. -/
def attendArr (lo : EReal) (k : (⟨3, ![B, T, J]⟩ : Shape).Idx → EReal) (v : (⟨3, ![B, T, D]⟩ : Shape).Idx → EReal)
    (q : (⟨2, ![C, J]⟩ : Shape).Idx → EReal) (mask : (⟨2, ![B, T]⟩ : Shape).Idx → BitVec 32) : (⟨3, ![B, C, D]⟩ : Shape).Idx → EReal :=
  fun i => attend lo k v q mask (i 0) (i 1) (i 2)

/-- `attendT` as one function of the result array's index. -/
def attendTArr (lo : EReal) (kT : (⟨3, ![B, J, T]⟩ : Shape).Idx → EReal) (v : (⟨3, ![B, T, D]⟩ : Shape).Idx → EReal)
    (q : (⟨2, ![C, J]⟩ : Shape).Idx → EReal) (mask1 : (⟨3, ![B, 1, T]⟩ : Shape).Idx → BitVec 32) : (⟨3, ![B, C, D]⟩ : Shape).Idx → EReal :=
  fun i => attendT lo kT v q mask1 (i 0) (i 1) (i 2)

end Cert.SoftmaxPool

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.LibRowwise.lean ====
/-
  Matrices read row by row, at the exact instance and for any extents.

  Two layout operations in their column forms — a vector made a one-column matrix (`[a] → [a, 1]`, what a sum that keeps
  its axis prints) and a one-column matrix repeated along its rows (`[a, 1] → [a, b]`) — read at an index written by
  coordinates, beside the library's row forms, so that "a per-row quantity broadcast over the row" and "a per-column
  quantity broadcast down the column" are each one rewrite.

  And the reductions of a matrix over its LAST axis read at a row: a sum is the sum over the row's entries, a maximum
  the fold of `max` over them from the starting value, on the vector unit (`multiReduction`) and on the host
  (`Host.reduceAdd`, `Host.reduce`) alike. The reduced index with a coordinate put back on the dropped axis is
  (row, coordinate): `lift_lastAxis`.
-/
import Idealize.ShloMosaic.Lib.ValueLayout
import Idealize.ShloMosaic.Lib.IdealHost
import Idealize.ShloMosaic.PureOps.Ideal.Laws

noncomputable section

namespace Cert.LibRowwise

open Idealize.ShloMosaic Idealize.ShloMosaic.ValueIdx
open scoped BigOperators

variable {α : Type}

/-! ## Column layouts -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row quantity `x : [a]`, kept as a column and repeated along the rows, reads `x p` everywhere in row `p`. -/
theorem perRow_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- A per-column quantity `x : [b]`, laid as one row and repeated down the rows, reads `x c` everywhere in column `c`. -/
theorem perColumn_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

/-! ## Reductions over the last axis, at a row -/

/-- Row `p` with the coordinate `k` put back on the dropped last axis is the matrix index `(p, k)`. -/
theorem lift_lastAxis {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = _
  unfold Shape.Reduces.liftVal
  match c with
  | ⟨0, _⟩ => exact (dif_neg (show ¬((0 : ℕ) = 1) by omega)).trans (dif_pos (show (0 : ℕ) < 1 by omega))
  | ⟨1, _⟩ => exact dif_pos (show (1 : ℕ) = 1 from rfl)

/-- The vector unit's sum of a matrix over its last axis, at row `p`: the sum of the row's entries. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_lastAxis h p k))

/-- The vector unit's maximum of a matrix over its last axis, at row `p`: the fold of `max` over the row's entries,
    from the accumulator's value. -/
theorem rowMax_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => (Finset.univ : Finset (Fin b)).fold max (Ideal.ofBits φ acc) f)
      (funext fun k => congrArg src (lift_lastAxis h p k)))

/-- The host's sum of a matrix over its last axis, at row `p`: the initial value plus the sum of the row's entries. -/
theorem hostRowSum_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) :=
  (hostReduceAdd_apply x init h' hu (ix1 p)).trans
    ((Ideal.hostReduceAdd_single h' h x _ (ix1 p)).trans
      (congrArg (init (Shape.Idx.first hu) + ·) (Finset.sum_congr rfl fun k _ => congrArg x (lift_lastAxis h p k))))

/-- The host's maximum of a matrix over its last axis, at row `p`: the fold of `max` over the row's entries, from the
    initial value. -/
theorem hostRowMax_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f => (Finset.univ : Finset (Fin b)).fold max (init (Shape.Idx.first hu)) f)
      (funext fun k => congrArg x (lift_lastAxis h p k)))

end Cert.LibRowwise

end
-- ==== Proof.KernelRow.lean ====
/-
  One batch element of the kernel's body, read at an index.

  At each grid point the body handles the two batch elements of its block one after the other, each by the same
  arithmetic: scores = (q · kᵀ) · mask, a softmax along the time axis (subtract the row's maximum, exponentiate, divide
  by the row's sum), and the product of the weights with the value rows. Here that arithmetic is cut into three stages
  over plain vectors (`scoresOf`, `softOf`, `pooledOf`), each read at an index written by coordinates, and the two
  payloads the body stores are shown to be their composition `oneBatch` — definitionally: the stages are the printed
  operations in the printed order.

  Read at (c, d), `oneBatch` is the pooled value of `Cert.SoftmaxPool` for the row of scores
  `t ↦ (Σ_j q (c, j) · kT (j, t)) · mask (0, 0, t)`: a change of float format is the identity on the extended reals, the
  two matrix products into zero accumulators are plain sums, the row maximum is a fold of `max` from the accumulator's
  word and the row sum a finite sum, and the keep-the-axis broadcasts read the per-row quantity back in every column.
-/
import proofs.«133256_j87634512708213_2_alg».proof.Proof.Gen.KernelIdeal.Skeleton
import proofs.«133256_j87634512708213_2_alg».proof.Proof.SoftmaxPool
import proofs.«133256_j87634512708213_2_alg».proof.Proof.LibMatmul2d
import proofs.«133256_j87634512708213_2_alg».proof.Proof.LibRowwise

noncomputable section

namespace Cert.KernelIdeal.Row

open Cert.KernelIdeal Cert.KernelIdeal.Gen Idealize.ShloMosaic Idealize.ShloMosaic.ValueIdx Cert.SoftmaxPool
open scoped BigOperators

/-- The value the row maximum starts from: the accumulator word of the kernel's maximum, read as an extended real. -/
abbrev lo : EReal := Ideal.ofBits .f32 0xFF800000#32

/-! ## The three stages -/

/-- Masked scores: the query matrix times the (feature-major) keys, times the mask row repeated down the rows. -/
def scoresOf (qb : FVec Ideal S10x10 .bf16) (kT : FVec Ideal S10x4096 .f32) (mk : IVec S1x4096 32) : FVec Ideal S10x4096 .f32 :=
  mulf (matmul dot_S10x10_S10x4096_S10x4096_1_0_0_1_n_n none qb (truncf .bf16 kT bitsLt_bf16_f32) (constant (F := Ideal) S10x4096 .f32 0x00000000#32))
    (broadcastTo S10x4096 (sitofp (F := Ideal) .f32 mk) broadcasts_S1x4096_S10x4096)

/-- The row maximum, kept as a column and repeated along each row. -/
def peakOf (s : FVec Ideal S10x4096 .f32) : FVec Ideal S10x4096 .f32 :=
  broadcastTo S10x4096 (shapeCast S10x1 (multiReduction .maximumf [1] S10 s 0xFF800000#32 reduces_S10x4096_S10 (.inl rfl) rfl) shapeCasts_S10_S10x1) broadcasts_S10x1_S10x4096

/-- Scores shifted by their row's maximum, exponentiated. -/
def shifted (s : FVec Ideal S10x4096 .f32) : FVec Ideal S10x4096 .f32 := exp (subf s (peakOf s))

/-- The row sum of a matrix, kept as a column and repeated along each row. -/
def totalOf (e : FVec Ideal S10x4096 .f32) : FVec Ideal S10x4096 .f32 :=
  broadcastTo S10x4096 (shapeCast S10x1 (multiReduction .add [1] S10 e 0x00000000#32 reduces_S10x4096_S10 (.inl rfl) rfl) shapeCasts_S10_S10x1) broadcasts_S10x1_S10x4096

/-- The softmax along the time axis. -/
def softOf (s : FVec Ideal S10x4096 .f32) : FVec Ideal S10x4096 .f32 := divf (shifted s) (totalOf (shifted s))

/-- The weights times the value rows. -/
def pooledOf (w : FVec Ideal S10x4096 .f32) (v : FVec Ideal S4096x256 .f32) : FVec Ideal S10x256 .f32 :=
  matmul dot_S10x4096_S4096x256_S10x256_1_0_0_1_n_n none (truncf .bf16 w bitsLt_bf16_f32) (truncf .bf16 v bitsLt_bf16_f32) (constant (F := Ideal) S10x256 .f32 0x00000000#32)

/-- One batch element: the three stages, the result given back its leading unit axis. -/
def oneBatch (qb : FVec Ideal S10x10 .bf16) (kT : FVec Ideal S10x4096 .f32) (v : FVec Ideal S4096x256 .f32) (mm : Vec Ideal S1x1x4096 .i32) :
    FVec Ideal S1x10x256 .f32 :=
  shapeCast S1x10x256 (pooledOf (softOf (scoresOf qb kT (shapeCast S1x4096 mm shapeCasts_S1x1x4096_S1x4096))) v) shapeCasts_S10x256_S1x10x256

/-! ## The stored payloads are `oneBatch` -/

/-- The second batch element's payload: its keys and values arrive already without their unit axis. -/
theorem pay1_eq (v1 : FVec Ideal S10x10 .bf16) (v29 : FVec Ideal S10x4096 .f32) (v31 : FVec Ideal S4096x256 .f32) (v32 : Vec Ideal S1x1x4096 .i32) :
    k0_pay1 (F := Ideal) v1 v29 v31 v32 = oneBatch v1 v29 v31 v32 := rfl

/-- The first batch element's payload: the unit axis of its keys and values is cast away first. -/
theorem pay3_eq (v0 : Vec Ideal S10x10 .f32) (v2 : Vec Ideal S1x10x4096 .f32) (v4 : Vec Ideal S1x4096x256 .f32) (v6 : Vec Ideal S1x1x4096 .i32) :
    k0_pay3 (F := Ideal) v0 v2 v4 v6
      = oneBatch (k0_pay2 v0) (shapeCast S10x4096 v2 shapeCasts_S1x10x4096_S10x4096) (shapeCast S4096x256 v4 shapeCasts_S1x4096x256_S4096x256) v6 := rfl

/-! ## The stages at an index -/

theorem scoresOf_apply (qb : FVec Ideal S10x10 .bf16) (kT : FVec Ideal S10x4096 .f32) (mk : IVec S1x4096 32) (c : Fin 10) (t : Fin 4096) :
    scoresOf qb kT mk (ix2 c t)
      = (∑ j : Fin 10, qb (ix2 c j) * kT (ix2 j t)) * FloatOps.sitofp (F := Ideal) .f32 (mk (ix2 (0 : Fin 1) t)) :=
  congrArg₂ (· * ·)
    (Cert.LibMatmul2d.matmul_plain_apply (M := 10) (K := 10) (N := 4096) qb (truncf .bf16 kT bitsLt_bf16_f32) c t)
    (broadcastTo_1b_ab_apply (sitofp (F := Ideal) .f32 mk) broadcasts_S1x4096_S10x4096 c t)

theorem peakOf_apply (s : FVec Ideal S10x4096 .f32) (c : Fin 10) (t : Fin 4096) :
    peakOf s (ix2 c t) = peak lo (fun t' => s (ix2 c t')) :=
  (Cert.LibRowwise.perRow_apply _ shapeCasts_S10_S10x1 broadcasts_S10x1_S10x4096 c t).trans
    (Cert.LibRowwise.rowMax_apply s 0xFF800000#32 reduces_S10x4096_S10 (.inl rfl) rfl c)

theorem shifted_apply (s : FVec Ideal S10x4096 .f32) (c : Fin 10) (t : Fin 4096) :
    shifted s (ix2 c t) = lifted lo (fun t' => s (ix2 c t')) t :=
  congrArg (fun p => Ideal.exp (s (ix2 c t) - p)) (peakOf_apply s c t)

theorem totalOf_apply (e : FVec Ideal S10x4096 .f32) (c : Fin 10) (t : Fin 4096) :
    totalOf e (ix2 c t) = ∑ t' : Fin 4096, e (ix2 c t') :=
  (Cert.LibRowwise.perRow_apply _ shapeCasts_S10_S10x1 broadcasts_S10x1_S10x4096 c t).trans
    (Cert.LibRowwise.rowSum_apply e 0x00000000#32 reduces_S10x4096_S10 (.inl rfl) rfl c)

theorem softOf_apply (s : FVec Ideal S10x4096 .f32) (c : Fin 10) (t : Fin 4096) :
    softOf s (ix2 c t) = weight lo (fun t' => s (ix2 c t')) t :=
  congrArg₂ Ideal.div (shifted_apply s c t)
    ((totalOf_apply (shifted s) c t).trans (Finset.sum_congr rfl fun t' _ => shifted_apply s c t'))

theorem pooledOf_apply (w : FVec Ideal S10x4096 .f32) (v : FVec Ideal S4096x256 .f32) (c : Fin 10) (d : Fin 256) :
    pooledOf w v (ix2 c d) = ∑ t : Fin 4096, w (ix2 c t) * v (ix2 t d) :=
  Cert.LibMatmul2d.matmul_plain_apply (M := 10) (K := 4096) (N := 256) (truncf .bf16 w bitsLt_bf16_f32) (truncf .bf16 v bitsLt_bf16_f32) c d

/-- One batch element at (c, d): the pooled value for the row of masked scores of query row `c`. -/
theorem oneBatch_apply (qb : FVec Ideal S10x10 .bf16) (kT : FVec Ideal S10x4096 .f32) (v : FVec Ideal S4096x256 .f32) (mm : Vec Ideal S1x1x4096 .i32)
    (u : Fin 1) (c : Fin 10) (d : Fin 256) :
    oneBatch qb kT v mm (ix3 u c d)
      = pooled lo (fun t => (∑ j : Fin 10, qb (ix2 c j) * kT (ix2 j t)) * FloatOps.sitofp (F := Ideal) .f32 (mm (ix3 (0 : Fin 1) (0 : Fin 1) t)))
          (fun t d => v (ix2 t d)) d := by
  have hs : (fun t' => scoresOf qb kT (shapeCast S1x4096 mm shapeCasts_S1x1x4096_S1x4096) (ix2 c t'))
      = fun t => (∑ j : Fin 10, qb (ix2 c j) * kT (ix2 j t)) * FloatOps.sitofp (F := Ideal) .f32 (mm (ix3 (0 : Fin 1) (0 : Fin 1) t)) :=
    funext fun t => (scoresOf_apply qb kT _ c t).trans
      (congrArg (fun z => (∑ j : Fin 10, qb (ix2 c j) * kT (ix2 j t)) * FloatOps.sitofp (F := Ideal) .f32 z)
        (shapeCast_1ab_ab_apply mm shapeCasts_S1x1x4096_S1x4096 (0 : Fin 1) t))
  refine (shapeCast_ab_1ab_apply _ shapeCasts_S10x256_S1x10x256 u c d).trans ?_
  refine (pooledOf_apply _ v c d).trans ?_
  unfold pooled
  refine Finset.sum_congr rfl fun t _ => ?_
  rw [softOf_apply, hs]

end Cert.KernelIdeal.Row

end
-- ==== Proof.KernelArray.lean ====
/-
  From the kernel's blocks to its result array.

  The grid has 32 points; point `t` stages batch elements `2t` and `2t + 1` of the (transposed) keys, the values and
  the mask, all of the query matrix, and writes back batch elements `2t` and `2t + 1` of the result. Three steps:

  * THE BLOCK. What the body leaves in the result's staging buffer is two stores, one per batch element of the block,
    each the attention pooling of that batch element's rows of the staged blocks: together, the pooling `attendTArr` of
    the four staged blocks, read as arrays with two batch elements (`block_eq`). An entry `(u, i, j)` of the half block
    that starts at batch element `o` is the block's entry `(o, i, j)` (`half_idx`).
  * THE POINT. An entry `(a, ·, ·)` of a block staged at point `t` is the array's entry `(2t + a, ·, ·)`, for every
    window that moves with the grid, and the query matrix is staged whole; so what point `t` writes back is block `t` of
    the pooling of the whole arrays as the region finds them (`flushed_eq`).
  * THE ARRAY. Every index of the result lies in the block of point `⌊b / 2⌋` (`cover`), so the result array after the
    run is that pooling (`final`); and the arrays the region finds are the host's transpose of the keys and the mask
    with a unit axis inserted, which turns the feature-major reading into the time-major one of the arguments
    themselves (`final_attend`, `run`).
-/
import proofs.«133256_j87634512708213_2_alg».proof.Proof.Gen.KernelIdeal.Value
import proofs.«133256_j87634512708213_2_alg».proof.Proof.KernelRow
import Idealize.ShloMosaic.Lib.Pipeline.Value
import Idealize.ShloMosaic.Lib.ValueLayout
import Idealize.ShloMosaic.Lib.StableHlo.Run

noncomputable section

namespace Cert.KernelIdeal.Arr

open Cert.KernelIdeal Cert.KernelIdeal.Gen Cert.KernelIdeal.Row Idealize.ShloMosaic Idealize.ShloMosaic.TcCoe Idealize.SL.Sem
open Idealize.ShloMosaic.ValueIdx Cert.SoftmaxPool
open Idealize.ShloMosaic.Pipeline (Dat)
open scoped BigOperators

/-! ## The block -/

/-- In a block of two batch elements, the half that starts at batch element `o` holds, at `(u, i, j)`, the block's
    entry `(o, i, j)`. -/
theorem half_idx {n1 n2 : ℕ} (o : Fin 2)
    (inb : ∀ a, (![o.val, 0, 0] : Fin 3 → ℕ) a + (![1, n1, n2] : Fin 3 → ℕ) a ≤ (⟨3, ![2, n1, n2]⟩ : Shape).size a)
    (u : Fin 1) (i : Fin n1) (j : Fin n2) :
    (Rect.unit (s := ⟨3, ![2, n1, n2]⟩) ![o.val, 0, 0] ![1, n1, n2] inb).idx (ix3 u i j) = ix3 o i j := by
  funext a
  apply Fin.ext
  have hu : u.val = 0 := by omega
  match a with
  | ⟨0, _⟩ => show o.val + 1 * u.val = o.val; omega
  | ⟨1, _⟩ => show 0 + 1 * i.val = i.val; omega
  | ⟨2, _⟩ => show 0 + 1 * j.val = j.val; omega

theorem zeros2 : (![0, 0] : Fin 2 → ℕ) = fun _ => 0 := funext fun a => by fin_cases a <;> rfl

section Block

variable (x0 : Vec Ideal S2x10x4096 .f32) (x1 : Vec Ideal S2x4096x256 .f32) (x2 : Vec Ideal S10x10 .f32) (x3 : Vec Ideal S2x1x4096 .i32)

/-- The query matrix is loaded whole (a change of float format is the identity). -/
theorem query_read (c j : Fin 10) : k0_pay2 (F := Ideal) (View.ld x2 r0_0) (ix2 c j) = x2 (ix2 c j) :=
  congrFun (View.ld_unit_zero (S := S10x10) zeros2 inb_S10x10_S10x10_0_0 x2) (ix2 c j)

/-- The store for the block's SECOND batch element holds its attention pooling. -/
theorem second_apply (u : Fin 1) (c : Fin 10) (d : Fin 256) :
    k0_pay1 (F := Ideal) (k0_pay2 (View.ld x2 r0_0)) (k0_pay4 (View.ld x0 r0_5)) (k0_pay5 (View.ld x1 r0_6)) (View.ld x3 r0_7) (ix3 u c d)
      = attendT (B := 2) (J := 10) (T := 4096) (C := 10) (D := 256) lo x0 x1 x2 x3 (1 : Fin 2) c d := by
  have e2 : ∀ j : Fin 10, k0_pay2 (F := Ideal) (View.ld x2 r0_0) (ix2 c j) = x2 (ix2 c j) := fun j => query_read x2 c j
  have e0 : ∀ (j : Fin 10) (t : Fin 4096), k0_pay4 (F := Ideal) (View.ld x0 r0_5) (ix2 j t) = x0 (ix3 (1 : Fin 2) j t) := fun j t =>
    (shapeCast_1ab_ab_apply (View.ld x0 r0_5) shapeCasts_S1x10x4096_S10x4096 j t).trans
      (congrArg x0 (half_idx (1 : Fin 2) inb_S2x10x4096_S1x10x4096_1_0_0 0 j t))
  have e1 : ∀ (t : Fin 4096) (d : Fin 256), k0_pay5 (F := Ideal) (View.ld x1 r0_6) (ix2 t d) = x1 (ix3 (1 : Fin 2) t d) := fun t d =>
    (shapeCast_1ab_ab_apply (View.ld x1 r0_6) shapeCasts_S1x4096x256_S4096x256 t d).trans
      (congrArg x1 (half_idx (1 : Fin 2) inb_S2x4096x256_S1x4096x256_1_0_0 0 t d))
  have e3 : ∀ t : Fin 4096, View.ld x3 r0_7 (ix3 (0 : Fin 1) (0 : Fin 1) t) = x3 (ix3 (1 : Fin 2) (0 : Fin 1) t) := fun t =>
    congrArg x3 (half_idx (1 : Fin 2) inb_S2x1x4096_S1x1x4096_1_0_0 0 0 t)
  rw [pay1_eq, oneBatch_apply]
  unfold attendT
  simp only [e0, e1, e2, e3]

/-- The store for the block's FIRST batch element holds its attention pooling. -/
theorem first_apply (u : Fin 1) (c : Fin 10) (d : Fin 256) :
    k0_pay3 (F := Ideal) (View.ld x2 r0_0) (View.ld x0 r0_1) (View.ld x1 r0_2) (View.ld x3 r0_3) (ix3 u c d)
      = attendT (B := 2) (J := 10) (T := 4096) (C := 10) (D := 256) lo x0 x1 x2 x3 (0 : Fin 2) c d := by
  have e2 : ∀ j : Fin 10, k0_pay2 (F := Ideal) (View.ld x2 r0_0) (ix2 c j) = x2 (ix2 c j) := fun j => query_read x2 c j
  have e0 : ∀ (j : Fin 10) (t : Fin 4096),
      shapeCast S10x4096 (View.ld x0 r0_1) shapeCasts_S1x10x4096_S10x4096 (ix2 j t) = x0 (ix3 (0 : Fin 2) j t) := fun j t =>
    (shapeCast_1ab_ab_apply (View.ld x0 r0_1) shapeCasts_S1x10x4096_S10x4096 j t).trans
      (congrArg x0 (half_idx (0 : Fin 2) inb_S2x10x4096_S1x10x4096_0_0_0 0 j t))
  have e1 : ∀ (t : Fin 4096) (d : Fin 256),
      shapeCast S4096x256 (View.ld x1 r0_2) shapeCasts_S1x4096x256_S4096x256 (ix2 t d) = x1 (ix3 (0 : Fin 2) t d) := fun t d =>
    (shapeCast_1ab_ab_apply (View.ld x1 r0_2) shapeCasts_S1x4096x256_S4096x256 t d).trans
      (congrArg x1 (half_idx (0 : Fin 2) inb_S2x4096x256_S1x4096x256_0_0_0 0 t d))
  have e3 : ∀ t : Fin 4096, View.ld x3 r0_3 (ix3 (0 : Fin 1) (0 : Fin 1) t) = x3 (ix3 (0 : Fin 2) (0 : Fin 1) t) := fun t =>
    congrArg x3 (half_idx (0 : Fin 2) inb_S2x1x4096_S1x1x4096_0_0_0 0 0 t)
  rw [pay3_eq, oneBatch_apply]
  unfold attendT
  simp only [e0, e1, e2, e3]

/-- What the body leaves in the result's staging buffer: the attention pooling of the four staged blocks. -/
theorem block_eq : out0_4 (F := Ideal) x0 x1 x2 x3 = attendTArr (B := 2) (J := 10) (T := 4096) (C := 10) (D := 256) lo x0 x1 x2 x3 := by
  funext y
  unfold out0_4
  refine View.canon_apply_of_pieces (Val := Elt Ideal) (attendTArr (B := 2) (J := 10) (T := 4096) (C := 10) (D := 256) lo x0 x1 x2 x3) _ ?_ y (cover0_4 _ _ y)
  intro p hp x
  simp only [List.mem_cons, List.not_mem_nil, or_false] at hp
  rcases hp with rfl | rfl
  · obtain ⟨u, c, d, rfl⟩ : ∃ (u : Fin 1) (c : Fin 10) (d : Fin 256), x = ix3 u c d := ⟨x 0, x 1, x 2, eq_ix3 x⟩
    exact (second_apply x0 x1 x2 x3 u c d).trans
      (congrArg (attendTArr (B := 2) (J := 10) (T := 4096) (C := 10) (D := 256) lo x0 x1 x2 x3) (half_idx (1 : Fin 2) inb_S2x10x256_S1x10x256_1_0_0 u c d)).symm
  · obtain ⟨u, c, d, rfl⟩ : ∃ (u : Fin 1) (c : Fin 10) (d : Fin 256), x = ix3 u c d := ⟨x 0, x 1, x 2, eq_ix3 x⟩
    exact (first_apply x0 x1 x2 x3 u c d).trans
      (congrArg (attendTArr (B := 2) (J := 10) (T := 4096) (C := 10) (D := 256) lo x0 x1 x2 x3) (half_idx (0 : Fin 2) inb_S2x10x256_S1x10x256_0_0_0 u c d)).symm

end Block

/-! ## The point -/

variable (m : (ℓ : Loc nD τ sig) → Buf (Elt Ideal) ℓ) (ρ : Dev nD → PrngReg)

/-- The printed index maps, decided over the 32 points: the keys', the values', the mask's and the result's blocks all
    sit at the point's own batch-pair index and at zero on the other axes; the query matrix's block index is zero. -/
theorem idx_facts : ∀ t : Fin cfg0.N,
    win0_0.index t (0 : Fin 3) = win0_4.index t (0 : Fin 3) ∧ win0_0.index t (1 : Fin 3) = 0 ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 3) = win0_4.index t (0 : Fin 3) ∧ win0_3.index t (1 : Fin 3) = 0 ∧ win0_3.index t (2 : Fin 3) = 0
    ∧ win0_4.index t (1 : Fin 3) = 0 ∧ win0_4.index t (2 : Fin 3) = 0 ∧ win0_4.index t (0 : Fin 3) ≤ 31 :=
  (by decide +kernel : ∀ t : Fin grid0.N, _)

/-- Every pair of batch elements is some point's. -/
theorem idx_onto : ∀ q : Fin 32, ∃ t : Fin cfg0.N, win0_4.index t = ![q.val, 0, 0] :=
  (by decide +kernel : ∀ q : Fin 32, ∃ t : Fin grid0.N, win0_4.index t = ![q.val, 0, 0])

/-- The pooling of the blocks staged at point `t`, at the block's batch element `a`, is the pooling of the whole arrays
    as the region finds them at batch element `2 · (the point's index) + a`. -/
theorem point_eq (c : Dev nD) (t : Fin cfg0.N) (a : Fin 2) (c' : Fin 10) (d : Fin 256) (β : Fin 64)
    (hβ : β.val = win0_4.index t (0 : Fin 3) * 2 + a.val) :
    attendT (B := 2) (J := 10) (T := 4096) (C := 10) (D := 256) lo (iblk m c 0 t) (iblk m c 1 t) (iblk m c 2 t) (iblk m c 3 t) a c' d
      = attendT (B := 64) (J := 10) (T := 4096) (C := 10) (D := 256) lo (V m c main_v0) (V m c main_arg1) (V m c main_arg2) (V m c main_v1) β c' d := by
  obtain ⟨f00, f01, f02, f10, f11, f12, f20, f21, f30, f31, f32, f41, f42, f4le⟩ := idx_facts t
  have e0 : ∀ (j : Fin 10) (tt : Fin 4096), iblk m c 0 t (ix3 a j tt) = V m c main_v0 (ix3 β j tt) := fun j tt => by
    show V m c main_v0 (((cfg0.win 0).blk t).view.emb (ix3 a j tt)) = V m c main_v0 (ix3 β j tt)
    refine congrArg (V m c main_v0) (funext fun ax => Fin.ext ?_)
    match ax with
    | ⟨0, _⟩ => show win0_0.index t (0 : Fin 3) * 2 + 1 * a.val = β.val; omega
    | ⟨1, _⟩ => show win0_0.index t (1 : Fin 3) * 10 + 1 * j.val = j.val; omega
    | ⟨2, _⟩ => show win0_0.index t (2 : Fin 3) * 4096 + 1 * tt.val = tt.val; omega
  have e1 : ∀ (tt : Fin 4096) (dd : Fin 256), iblk m c 1 t (ix3 a tt dd) = V m c main_arg1 (ix3 β tt dd) := fun tt dd => by
    show V m c main_arg1 (((cfg0.win 1).blk t).view.emb (ix3 a tt dd)) = V m c main_arg1 (ix3 β tt dd)
    refine congrArg (V m c main_arg1) (funext fun ax => Fin.ext ?_)
    match ax with
    | ⟨0, _⟩ => show win0_1.index t (0 : Fin 3) * 2 + 1 * a.val = β.val; omega
    | ⟨1, _⟩ => show win0_1.index t (1 : Fin 3) * 4096 + 1 * tt.val = tt.val; omega
    | ⟨2, _⟩ => show win0_1.index t (2 : Fin 3) * 256 + 1 * dd.val = dd.val; omega
  have e2 : ∀ j : Fin 10, iblk m c 2 t (ix2 c' j) = V m c main_arg2 (ix2 c' j) := fun j => by
    show V m c main_arg2 (((cfg0.win 2).blk t).view.emb (ix2 c' j)) = V m c main_arg2 (ix2 c' j)
    refine congrArg (V m c main_arg2) (funext fun ax => Fin.ext ?_)
    match ax with
    | ⟨0, _⟩ => show win0_2.index t (0 : Fin 2) * 10 + 1 * c'.val = c'.val; omega
    | ⟨1, _⟩ => show win0_2.index t (1 : Fin 2) * 10 + 1 * j.val = j.val; omega
  have e3 : ∀ tt : Fin 4096, iblk m c 3 t (ix3 a (0 : Fin 1) tt) = V m c main_v1 (ix3 β (0 : Fin 1) tt) := fun tt => by
    show V m c main_v1 (((cfg0.win 3).blk t).view.emb (ix3 a (0 : Fin 1) tt)) = V m c main_v1 (ix3 β (0 : Fin 1) tt)
    refine congrArg (V m c main_v1) (funext fun ax => Fin.ext ?_)
    match ax with
    | ⟨0, _⟩ => show win0_3.index t (0 : Fin 3) * 2 + 1 * a.val = β.val; omega
    | ⟨1, _⟩ => show win0_3.index t (1 : Fin 3) * 1 + 1 * 0 = 0; omega
    | ⟨2, _⟩ => show win0_3.index t (2 : Fin 3) * 4096 + 1 * tt.val = tt.val; omega
  unfold attendT
  simp only [e0, e1, e2, e3]

/-- WHAT POINT `t` WRITES BACK is block `t` of the attention pooling of the arrays as the region finds them. -/
theorem flushed_eq (c : Dev nD) (t : Fin cfg0.N) :
    (dats m 0 c).flushed 4 t = ((cfg0.win 4).blk t).view.read (Elt Ideal)
      (attendTArr (B := 64) (J := 10) (T := 4096) (C := 10) (D := 256) lo (V m c main_v0) (V m c main_arg1) (V m c main_arg2) (V m c main_v1)) := by
  rw [Cert.KernelIdeal.Value.flushed4, block_eq (iblk m c 0 t) (iblk m c 1 t) (iblk m c 2 t) (iblk m c 3 t)]
  obtain ⟨f00, f01, f02, f10, f11, f12, f20, f21, f30, f31, f32, f41, f42, f4le⟩ := idx_facts t
  funext y
  obtain ⟨a, c', d, rfl⟩ : ∃ (a : Fin 2) (c' : Fin 10) (d : Fin 256), y = ix3 a c' d := ⟨y 0, y 1, y 2, eq_ix3 y⟩
  have ha : a.val < 2 := a.isLt
  refine (point_eq m c t a c' d ⟨win0_4.index t (0 : Fin 3) * 2 + a.val, by omega⟩ rfl).trans ?_
  show attendTArr (B := 64) (J := 10) (T := 4096) (C := 10) (D := 256) lo (V m c main_v0) (V m c main_arg1) (V m c main_arg2) (V m c main_v1)
      (ix3 (⟨win0_4.index t (0 : Fin 3) * 2 + a.val, by omega⟩ : Fin 64) c' d)
    = attendTArr (B := 64) (J := 10) (T := 4096) (C := 10) (D := 256) lo (V m c main_v0) (V m c main_arg1) (V m c main_arg2) (V m c main_v1) (((cfg0.win 4).blk t).view.emb (ix3 a c' d))
  refine congrArg _ (funext fun ax => Fin.ext ?_)
  match ax with
  | ⟨0, _⟩ => show win0_4.index t (0 : Fin 3) * 2 + a.val = win0_4.index t (0 : Fin 3) * 2 + 1 * a.val; omega
  | ⟨1, _⟩ => show c'.val = win0_4.index t (1 : Fin 3) * 10 + 1 * c'.val; omega
  | ⟨2, _⟩ => show d.val = win0_4.index t (2 : Fin 3) * 256 + 1 * d.val; omega

/-! ## The array -/

/-- An index of the result is in point `t`'s block iff each coordinate is in the block's range on its axis. -/
theorem mem_blk (t : Fin cfg0.N) (i : S64x10x256.Idx) :
    i ∈ ((cfg0.win 4).blk t).view.set ↔ ∀ a : Fin 3, win0_4.index t a * S2x10x256.size a ≤ (i a).val ∧ (i a).val < win0_4.index t a * S2x10x256.size a + S2x10x256.size a := by
  show i ∈ ((View.whole main_v2).slice (win0_4.rect t)).set ↔ _
  rw [View.set_slice_whole, Rect.mem_set_unit]
  exact Iff.rfl

/-- Every index of the result is in the block of the point that handles its pair of batch elements. -/
theorem cover (i : S64x10x256.Idx) : ∃ t : Fin cfg0.N, (cfg0.win 4).flush t = true ∧ i ∈ ((cfg0.win 4).blk t).view.set := by
  have hi0 : (i 0).val < 64 := (i 0).isLt
  have hi1 : (i 1).val < 10 := (i 1).isLt
  have hi2 : (i 2).val < 256 := (i 2).isLt
  obtain ⟨t, ht⟩ := idx_onto ⟨(i 0).val / 2, by omega⟩
  have q0 : win0_4.index t (0 : Fin 3) = (i 0).val / 2 := congrFun ht 0
  have q1 : win0_4.index t (1 : Fin 3) = 0 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 2 ≤ (i 0).val ∧ (i 0).val < win0_4.index t (0 : Fin 3) * 2 + 2; omega
  | ⟨1, _⟩ => show win0_4.index t (1 : Fin 3) * 10 ≤ (i 1).val ∧ (i 1).val < win0_4.index t (1 : Fin 3) * 10 + 10; omega
  | ⟨2, _⟩ => show win0_4.index t (2 : Fin 3) * 256 ≤ (i 2).val ∧ (i 2).val < win0_4.index t (2 : Fin 3) * 256 + 256; omega

/-- THE RESULT ARRAY after the run: the attention pooling of the arrays as the region finds them. -/
theorem final (c : Dev nD) :
    (dats m 0 c).arrAt 4 cfg0.N = attendTArr (B := 64) (J := 10) (T := 4096) (C := 10) (D := 256) lo (V m c main_v0) (V m c main_arg1) (V m c main_arg2) (V m c main_v1) :=
  (dats m 0 c).arrAt_eq_of_cover 4 _ (fun t _ => flushed_eq m c t) cover

/-! ## The arrays the region finds -/

/-- The keys the region finds are the host's transpose of the argument. -/
theorem V_keys (c : Dev nD) : (V m c main_v0 : S64x10x4096.Idx → EReal)
    = transpose S64x10x4096 [0, 2, 1] (m ((c : Thread nD τ).loc main_arg0)) transposes_S64x4096x10_S64x10x4096_0_2_1 := by
  dsimp only [Gen.V, Gen.hostOps0]; after_results

/-- The mask the region finds is the argument with a unit axis inserted. -/
theorem V_mask (c : Dev nD) : (V m c main_v1 : S64x1x4096.Idx → BitVec 32)
    = broadcastInDim S64x1x4096 ![0, 2] bcast_S64x4096_S64x1x4096_0_2 (m ((c : Thread nD τ).loc main_arg3)) := by
  dsimp only [Gen.V, Gen.hostOps0]; after_results

/-- The mask with its unit axis inserted reads, at `(b, 0, t)`, the mask at `(b, t)`. -/
theorem mask1_apply (x : S64x4096.Idx → BitVec 32) (b : Fin 64) (t : Fin 4096) :
    broadcastInDim S64x1x4096 ![0, 2] bcast_S64x4096_S64x1x4096_0_2 x (ix3 b (0 : Fin 1) t) = x (ix2 b t) :=
  broadcastInDim_apply _ bcast_S64x4096_S64x1x4096_0_2 x (ix3 b (0 : Fin 1) t) (ix2 b t) (fun a => match a with
    | ⟨0, _⟩ => by show b.val = if (64 : Nat) = 1 then 0 else b.val; rw [if_neg (by decide)]
    | ⟨1, _⟩ => by show t.val = if (4096 : Nat) = 1 then 0 else t.val; rw [if_neg (by decide)])

/-- THE RESULT ARRAY after the run, as a function of the ARGUMENTS: their attention pooling. -/
theorem final_attend (c : Dev nD) :
    (dats m 0 c).arrAt 4 cfg0.N = attendArr (B := 64) (T := 4096) (J := 10) (C := 10) (D := 256) lo (m ((c : Thread nD τ).loc main_arg0)) (m ((c : Thread nD τ).loc main_arg1))
      (m ((c : Thread nD τ).loc main_arg2)) (m ((c : Thread nD τ).loc main_arg3)) := by
  rw [final, V_keys, V_mask, V_main_arg1, V_main_arg2]
  funext i
  exact attendT_eq_attend lo _ _ _ _ _ _
    (fun b j t => transpose_ix3_021_apply (m ((c : Thread nD τ).loc main_arg0)) transposes_S64x4096x10_S64x10x4096_0_2_1 b j t)
    (fun b t => mask1_apply (m ((c : Thread nD τ).loc main_arg3)) b t) (i 0) (i 1) (i 2)

/-- The kernel's run: the result array ends at the attention pooling of the arguments, the arguments unchanged. -/
theorem run : θ_run defs (onTc (τ := τ) (main (F := Ideal))) ⟨m, fun _ => 0, ρ⟩ fun r => ∀ c : Dev nD,
      r.2.mem ((c : Thread nD τ).loc main_v2) = attendArr (B := 64) (T := 4096) (J := 10) (C := 10) (D := 256) lo (m ((c : Thread nD τ).loc main_arg0))
          (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_attend m c), (h c).2⟩) (Cert.KernelIdeal.Value.run_blocks m ρ)

end Cert.KernelIdeal.Arr

end
-- ==== Proof.LibLastAxis3.lean ====
/-
  A rank-three array reduced over its LAST axis by the host, read at an index, at the exact instance and for any extents.

  The host's `stablehlo.reduce` with a maximum body over the last axis of an `[a, b, n]` array is, at `(p, q)`, the fold
  of `max` over the `n` entries `x (p, q, k)` from the initial value's element. The reduced index with a coordinate put
  back on the dropped axis is `(p, q, k)`: `lift_lastAxis3`. (For a matrix the same facts are one rank lower; the sum
  over the last axis of a rank-three array is read by the generated read-at-an-index lemmas and needs nothing here.)
-/
import Idealize.ShloMosaic.Lib.ValueIdx
import Idealize.ShloMosaic.PureOps.Ideal.Laws

noncomputable section

namespace Cert.LibLastAxis3

open Idealize.ShloMosaic Idealize.ShloMosaic.ValueIdx

/-- The index `(p, q)` with the coordinate `k` put back on the dropped last axis is `(p, q, k)`. -/
theorem lift_lastAxis3 {a b n : ℕ} (h : (⟨3, ![a, b, n]⟩ : Shape).Reduces [2] ⟨2, ![a, b]⟩) (p : Fin a) (q : Fin b) (k : Fin n) :
    h.lift (ix2 p q) k = ix3 p q k := by
  funext c
  apply Fin.ext
  show h.liftVal (ix2 p q) k.val c = _
  unfold Shape.Reduces.liftVal
  match c with
  | ⟨0, _⟩ => exact (dif_neg (show ¬((0 : ℕ) = 2) by omega)).trans (dif_pos (show (0 : ℕ) < 2 by omega))
  | ⟨1, _⟩ => exact (dif_neg (show ¬((1 : ℕ) = 2) by omega)).trans (dif_pos (show (1 : ℕ) < 2 by omega))
  | ⟨2, _⟩ => exact dif_pos (show (2 : ℕ) = 2 from rfl)

/-- The host's maximum of an `[a, b, n]` array over its last axis, at `(p, q)`: the fold of `max` over the entries
    `x (p, q, k)`, from the initial value. -/
theorem hostMax_lastAxis3_apply {φ : FTy} {a b n : ℕ} {u : Shape} (x : FVec Ideal ⟨3, ![a, b, n]⟩ φ) (init : u.Idx → Ideal φ)
    (h' : (⟨3, ![a, b, n]⟩ : Shape).ReducesTo [2] ⟨2, ![a, b]⟩) (h : (⟨3, ![a, b, n]⟩ : Shape).Reduces [2] ⟨2, ![a, b]⟩)
    (hu : 0 < u.numel) (p : Fin a) (q : Fin b) :
    Host.reduce (FloatOps.maximumf (F := Ideal) (φ := φ)) x init h' hu (ix2 p q)
      = (Finset.univ : Finset (Fin n)).fold max (init (Shape.Idx.first hu)) (fun k => x (ix3 p q k)) :=
  (Host.reduce_eq_fold_single (FloatOps.maximumf (F := Ideal) (φ := φ)) x init h' h hu (ix2 p q)).trans
    (congrArg (fun f => (Finset.univ : Finset (Fin n)).fold max (init (Shape.Idx.first hu)) f)
      (funext fun k => congrArg x (lift_lastAxis3 h p q k)))

end Cert.LibLastAxis3

end
-- ==== Proof.RefRow.lean ====
/-
  The reference, read at an index: it is the attention pooling of `Cert.SoftmaxPool`.

  The reference computes, on whole arrays, the scores `Σ_j k (b, t, j) · q (c, j)` (a contraction, then a transpose to
  `[b, c, t]`), multiplies them by the mask converted to a float and repeated over the query axis, and applies a softmax
  over the time axis — the maximum over `t` (a reduction from the lowest value, then once more a maximum with that same
  lowest value, which changes nothing), the shifted exponentials, their sum from zero, the quotient — before
  contracting the weights with the values over `t`. Each stage is read at an index through the generated stage lemmas;
  the maximum over the time axis, which those do not read, through the fold of `max` over the last axis.
-/
import proofs.«133256_j87634512708213_2_alg».proof.Proof.Gen.ReferenceIdeal.Read
import proofs.«133256_j87634512708213_2_alg».proof.Proof.SoftmaxPool
import proofs.«133256_j87634512708213_2_alg».proof.Proof.LibLastAxis3

noncomputable section

namespace Cert.ReferenceIdeal.RefValue

open Cert.ReferenceIdeal Cert.ReferenceIdeal.Gen Cert.ReferenceIdeal.Read Idealize.ShloMosaic Idealize.ShloMosaic.ValueIdx Cert.SoftmaxPool
open scoped BigOperators

/-- The value the maximum over the time axis starts from: the reference's initial word, read as an extended real. -/
abbrev lo : EReal := Ideal.ofBits .f32 0xFF800000#32

variable (x0 : (⟨S64x4096x10, .f32⟩ : BufTy).Contents (Elt Ideal)) (x1 : (⟨S64x4096x256, .f32⟩ : BufTy).Contents (Elt Ideal))
  (x2 : (⟨S10x10, .f32⟩ : BufTy).Contents (Elt Ideal)) (x3 : (⟨S64x4096, .i32⟩ : BufTy).Contents (Elt Ideal))

/-- The masked scores of batch element `b` and query row `c`, along the time axis. -/
def scoreRow (b : Fin 64) (c : Fin 10) : Fin 4096 → EReal :=
  fun t => (∑ j : Fin 10, x0 (ix3 b t j) * x2 (ix2 c j)) * FloatOps.sitofp (F := Ideal) .f32 (x3 (ix2 b t))

/-- The masked scores: the contraction over the feature axis, transposed, times the mask. -/
theorem scores_apply (b : Fin 64) (c : Fin 10) (t : Fin 4096) :
    val_main_v5 (F := Ideal) x0 x2 x3 (ix3 b c t) = scoreRow x0 x2 x3 b c t := by
  rw [val_main_v5_apply, val_main_v1_apply, val_main_v0_apply, val_main_v4_apply, val_main_v3_apply, val_main_v2_apply]
  have hl : ∀ j : Fin 10, lidx_main_v0 (idx_main_v1 (ix3 b c t)) j = ix3 b t j := fun j => funext fun a => by
    match a with | ⟨0, _⟩ => rfl | ⟨1, _⟩ => rfl | ⟨2, _⟩ => rfl
  have hr : ∀ j : Fin 10, ridx_main_v0 (idx_main_v1 (ix3 b c t)) j = ix2 c j := fun j => funext fun a => by
    match a with | ⟨0, _⟩ => rfl | ⟨1, _⟩ => rfl
  have hm : idx_main_v2 (idx_main_v4 (ix3 b c t)) = ix2 b t := funext fun a => by
    match a with | ⟨0, _⟩ => rfl | ⟨1, _⟩ => rfl
  simp only [hl, hr, hm]
  rfl

/-- The maximum over the time axis, after the second maximum with the lowest value. -/
theorem peak_apply (b : Fin 64) (c : Fin 10) :
    val_main_v8 (F := Ideal) x0 x2 x3 (ix2 b c) = peak lo (scoreRow x0 x2 x3 b c) := by
  have h6 : val_main_v6 (F := Ideal) x0 x2 x3 (ix2 b c) = peak lo (scoreRow x0 x2 x3 b c) :=
    (Cert.LibLastAxis3.hostMax_lastAxis3_apply (val_main_v5 (F := Ideal) x0 x2 x3) (val_main_cst (F := Ideal))
        reducesTo_S64x10x4096_S64x10_d2 (by decide) h_S_ b c).trans
      (congrArg (fun f => (Finset.univ : Finset (Fin 4096)).fold max lo f) (funext fun t => scores_apply x0 x2 x3 b c t))
  rw [val_main_v8_apply, val_main_v7_apply, val_main_cst_0_apply, h6]
  exact max_lo_peak lo _

/-- The shifted exponentials. -/
theorem lifted_apply (b : Fin 64) (c : Fin 10) (t : Fin 4096) :
    val_main_v12 (F := Ideal) x0 x2 x3 (ix3 b c t) = lifted lo (scoreRow x0 x2 x3 b c) t := by
  have hi : idx_main_v9 (idx_main_v10 (ix3 b c t)) = ix2 b c := funext fun a => by
    match a with | ⟨0, _⟩ => rfl | ⟨1, _⟩ => rfl
  rw [val_main_v12_apply, val_main_v11_apply, val_main_v10_apply, val_main_v9_apply, hi, peak_apply, scores_apply]
  rfl

/-- Their sum over the time axis, repeated along it. -/
theorem total_apply (b : Fin 64) (c : Fin 10) (t : Fin 4096) :
    val_main_v15 (F := Ideal) x0 x2 x3 (ix3 b c t) = ∑ t' : Fin 4096, lifted lo (scoreRow x0 x2 x3 b c) t' := by
  have hi : idx_main_v14 (idx_main_v15 (ix3 b c t)) = ix2 b c := funext fun a => by
    match a with | ⟨0, _⟩ => rfl | ⟨1, _⟩ => rfl
  have hk : ∀ k : Fin 4096, idx_main_v13 (ix2 b c) k = ix3 b c k := fun k => funext fun a => by
    match a with | ⟨0, _⟩ => rfl | ⟨1, _⟩ => rfl | ⟨2, _⟩ => rfl
  rw [val_main_v15_apply, val_main_v14_apply, hi, val_main_v13_apply, val_main_cst_1_apply]
  simp only [hk, lifted_apply]
  show Ideal.ofBits .f32 0x00000000#32 + _ = _
  rw [Ideal.ofBits_zero_f32, zero_add]

/-- The softmax weights. -/
theorem weight_apply (b : Fin 64) (c : Fin 10) (t : Fin 4096) :
    val_main_v16 (F := Ideal) x0 x2 x3 (ix3 b c t) = weight lo (scoreRow x0 x2 x3 b c) t := by
  rw [val_main_v16_apply, lifted_apply, total_apply]
  rfl

/-- The reference's result at `(b, c, d)`. -/
theorem result_apply (b : Fin 64) (c : Fin 10) (d : Fin 256) :
    val_main_v17 (F := Ideal) x0 x1 x2 x3 (ix3 b c d)
      = attend (B := 64) (T := 4096) (J := 10) (C := 10) (D := 256) lo x0 x1 x2 x3 b c d := by
  have hl : ∀ k : Fin 4096, lidx_main_v17 (ix3 b c d) k = ix3 b c k := fun k => funext fun a => by
    match a with | ⟨0, _⟩ => rfl | ⟨1, _⟩ => rfl | ⟨2, _⟩ => rfl
  have hr : ∀ k : Fin 4096, ridx_main_v17 (ix3 b c d) k = ix3 b k d := fun k => funext fun a => by
    match a with | ⟨0, _⟩ => rfl | ⟨1, _⟩ => rfl | ⟨2, _⟩ => rfl
  rw [val_main_v17_apply]
  simp only [hl, hr, weight_apply]
  rfl

/-- The reference's result array is the attention pooling of its arguments. -/
theorem result_eq : val_main_v17 (F := Ideal) x0 x1 x2 x3
    = attendArr (B := 64) (T := 4096) (J := 10) (C := 10) (D := 256) lo x0 x1 x2 x3 :=
  funext fun i => (congrArg (val_main_v17 (F := Ideal) x0 x1 x2 x3) (eq_ix3 i)).trans (result_apply x0 x1 x2 x3 (i 0) (i 1) (i 2))

end Cert.ReferenceIdeal.RefValue

end
-- ==== Proof.lean ====
/- The kernel and its reference compute the same attention pooling; the five claims of `Cert.Claim`.

   Both programs take keys `k : [64, 4096, 10]`, values `v : [64, 4096, 256]`, a query matrix `q : [10, 10]` and an
   integer mask `[64, 4096]`, and return, for batch element `b`, query row `c` and feature `d`,

       Σ_t softmax_t ( (Σ_j k (b, t, j) · q (c, j)) · mask (b, t) ) · v (b, t, d),

   the softmax along the time axis computed as: subtract the row's maximum, exponentiate, divide by the row's sum
   (`Cert.SoftmaxPool`). The kernel transposes the keys on the host, gives the mask a unit axis, and handles two batch
   elements per grid point with matrix products, a lane maximum and a lane sum; the reference does the same arithmetic
   on whole arrays, with the two factors of the score's products in the other order and one extra maximum with the
   lowest value after its reduction. On the extended reals, where a change of float format is the identity, the two
   agree index by index by commutativity of the product and by `max lo x = x` for a maximum `x` folded from `lo`;
   nothing needs the inputs to be finite, so the precondition is never opened.

   * The three frames: the two kernels' are their generated frame certificates; the reference's is its generated run
     with the result dropped.
   * `preserves`: the idealization rewrote nothing, and the claim is `True`.
   * `algebraic`: the kernel's result array is the pooling of the arguments (`Cert.KernelIdeal.Arr.run`: the body's two
     stores per point, the blocks, the cover of the array by the 32 points' blocks, the host's transpose read back),
     and so is the reference's (`Cert.ReferenceIdeal.RefValue.result_eq` over its generated run), of arguments that
     agree. -/
import proofs.«133256_j87634512708213_2_alg».proof.Defs
import proofs.«133256_j87634512708213_2_alg».proof.Proof.Gen.Kernel
import proofs.«133256_j87634512708213_2_alg».proof.Proof.Gen.Kernel.Skeleton
import proofs.«133256_j87634512708213_2_alg».proof.Proof.Gen.Kernel.Launch
import proofs.«133256_j87634512708213_2_alg».proof.Proof.Gen.Kernel.Points
import proofs.«133256_j87634512708213_2_alg».proof.Proof.Gen.Kernel.Frame
import proofs.«133256_j87634512708213_2_alg».proof.Proof.Gen.KernelIdeal
import proofs.«133256_j87634512708213_2_alg».proof.Proof.Gen.KernelIdeal.Skeleton
import proofs.«133256_j87634512708213_2_alg».proof.Proof.Gen.KernelIdeal.Launch
import proofs.«133256_j87634512708213_2_alg».proof.Proof.Gen.KernelIdeal.Points
import proofs.«133256_j87634512708213_2_alg».proof.Proof.Gen.KernelIdeal.Frame
import proofs.«133256_j87634512708213_2_alg».proof.Proof.Gen.ReferenceIdeal
import proofs.«133256_j87634512708213_2_alg».proof.Proof.Gen.Pre_finite_inputs
import proofs.«133256_j87634512708213_2_alg».proof.Proof.Gen.KernelIdeal.Value
import proofs.«133256_j87634512708213_2_alg».proof.Proof.Gen.ReferenceIdeal.Run
import proofs.«133256_j87634512708213_2_alg».proof.Proof.Gen.ReferenceIdeal.Read
import proofs.«133256_j87634512708213_2_alg».proof.Proof.KernelArray
import proofs.«133256_j87634512708213_2_alg».proof.Proof.RefRow
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from memories agreeing on the arguments, both programs end with the attention pooling of
    the arguments in their result arrays. -/
theorem algebraic : Cert.algebraic_KernelIdeal_ReferenceIdeal := by
  intro m ρ m' ρ' _ hagree
  refine ⟨_, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
